-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  main_v3
-- ==== Kernel.lean ====
abbrev S32x1024x1024 : Shape := ⟨3, ![32, 1024, 1024]⟩
abbrev S1x1024x1024 : Shape := ⟨3, ![1, 1024, 1024]⟩
abbrev S33554432 : Shape := ⟨1, ![33554432]⟩
abbrev S1x33554432 : Shape := ⟨2, ![1, 33554432]⟩
abbrev S2x33554432 : Shape := ⟨2, ![2, 33554432]⟩

abbrev nBuf : Space → Nat
  | .hbm => 10
  | .vmem => 4
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .i32⟩
  | .hbm, ⟨3, _⟩ => ⟨S33554432, .i32⟩
  | .hbm, ⟨4, _⟩ => ⟨S32x1024x1024, .i32⟩
  | .hbm, ⟨5, _⟩ => ⟨S33554432, .i32⟩
  | .hbm, ⟨6, _⟩ => ⟨S1x33554432, .i32⟩
  | .hbm, ⟨7, _⟩ => ⟨S1x33554432, .i32⟩
  | .hbm, ⟨8, _⟩ => ⟨S2x33554432, .i32⟩
  | .hbm, ⟨9, _⟩ => ⟨S33554432, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S32x1024x1024_S33554432 : S32x1024x1024.ShapeCasts S33554432
  bcast_S33554432_S1x33554432_1 : S33554432.BroadcastsInDim S1x33554432 (![1] : Fin 1 → Fin S1x33554432.rank)
  concatenates_S1x33554432_S1x33554432_S2x33554432_d0 : Shape.Concatenates [S1x33554432, S1x33554432] S2x33554432 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S_ : Shape := ⟨0, ![]⟩
abbrev S1024 : Shape := ⟨1, ![1024]⟩
abbrev S1024x1024 : Shape := ⟨2, ![1024, 1024]⟩
abbrev S1048576 : Shape := ⟨1, ![1048576]⟩
abbrev S1x1024 : Shape := ⟨2, ![1, 1024]⟩
abbrev S1x1048576 : Shape := ⟨2, ![1, 1048576]⟩
abbrev S2x1048576 : Shape := ⟨2, ![2, 1048576]⟩
abbrev S1x2x1x1048576 : Shape := ⟨4, ![1, 2, 1, 1048576]⟩
abbrev S1x2x32x1048576 : Shape := ⟨4, ![1, 2, 32, 1048576]⟩
abbrev S2x33554432 : Shape := ⟨2, ![2, 33554432]⟩
abbrev S33554432 : Shape := ⟨1, ![33554432]⟩

abbrev nBuf : Space → Nat
  | .hbm => 23
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S_, .f32⟩
  | .hbm, ⟨4, _⟩ => ⟨S32x1024x1024, .f32⟩
  | .hbm, ⟨5, _⟩ => ⟨S32x1024x1024, .f32⟩
  | .hbm, ⟨6, _⟩ => ⟨S_, .f32⟩
  | .hbm, ⟨7, _⟩ => ⟨S32x1024x1024, .f32⟩
  | .hbm, ⟨8, _⟩ => ⟨S32x1024x1024, .f32⟩
  | .hbm, ⟨9, _⟩ => ⟨S1024, .i32⟩
  | .hbm, ⟨10, _⟩ => ⟨S1024x1024, .i32⟩
  | .hbm, ⟨11, _⟩ => ⟨S1048576, .i32⟩
  | .hbm, ⟨12, _⟩ => ⟨S1024, .i32⟩
  | .hbm, ⟨13, _⟩ => ⟨S1x1024, .i32⟩
  | .hbm, ⟨14, _⟩ => ⟨S1024x1024, .i32⟩
  | .hbm, ⟨15, _⟩ => ⟨S1048576, .i32⟩
  | .hbm, ⟨16, _⟩ => ⟨S1x1048576, .i32⟩
  | .hbm, ⟨17, _⟩ => ⟨S1x1048576, .i32⟩
  | .hbm, ⟨18, _⟩ => ⟨S2x1048576, .i32⟩
  | .hbm, ⟨19, _⟩ => ⟨S1x2x1x1048576, .i32⟩
  | .hbm, ⟨20, _⟩ => ⟨S1x2x32x1048576, .i32⟩
  | .hbm, ⟨21, _⟩ => ⟨S2x33554432, .i32⟩
  | .hbm, ⟨22, _⟩ => ⟨S33554432, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  shapeCasts_S2x1048576_S1x2x1x1048576 : S2x1048576.ShapeCasts S1x2x1x1048576
  bcast_S1x2x1x1048576_S1x2x32x1048576_0_1_2_3 : S1x2x1x1048576.BroadcastsInDim S1x2x32x1048576 (![0, 1, 2, 3] : Fin 4 → Fin S1x2x32x1048576.rank)
  shapeCasts_S1x2x32x1048576_S2x33554432 : S1x2x32x1048576.ShapeCasts S2x33554432
  shapeCasts_S32x1024x1024_S33554432 : S32x1024x1024.ShapeCasts S33554432

variable [Facts₀]

class Facts : Prop extends Facts₀ where

variable [Facts]
-- ==== Proof.EdgeSpec.lean ====
/-
  What both programs compute, stated without either of them.

  The input is a stack of 32 square matrices of side 1024.  Two arrays come out:

  * the edge attributes: the logistic function 1 / (1 + e^(-x)) of every entry, laid out flat in row-major
    order, so position `f` of the flat array holds the entry of matrix `f / 2^20`, row `f / 2^10 mod 2^10`,
    column `f mod 2^10`;
  * the edge index: two rows of the same flat length; at position `f` the first row holds the row number
    `f / 2^10 mod 2^10` and the second row the column number `f mod 2^10` (numbers local to each matrix,
    the same for every matrix of the stack).

  The one layout fact used on both sides is that flattening reads position `f` at that triple.
-/
import Idealize.ShloMosaic.PureOps.Ideal
import Idealize.ShloMosaic.Lib.ValueIdx
import Idealize.ShloMosaic.Lib.Pipeline.Value

noncomputable section

namespace Cert.EdgeSpec

open Idealize.ShloMosaic Idealize.ShloMosaic.ValueIdx

/-- The stack of matrices, the flat array, and the two-row index array. -/
abbrev Stack : Shape := ⟨3, ![32, 1024, 1024]⟩
abbrev Flat : Shape := ⟨1, ![33554432]⟩
abbrev TwoRows : Shape := ⟨2, ![2, 33554432]⟩

/-- The row number a flat position belongs to, and its column number. -/
def rowOf (f : Nat) : Nat := f / 1024 % 1024
def colOf (f : Nat) : Nat := f % 1024

/-- The entry of the stack that flat position `i` holds: (matrix, row, column). -/
def cell (i : Flat.Idx) : Stack.Idx :=
  ix3 ⟨(i 0).val / 1048576, by have h0 : (i 0).val < 33554432 := (i 0).isLt; omega⟩
    ⟨rowOf (i 0).val, by unfold rowOf; omega⟩
    ⟨colOf (i 0).val, by unfold colOf; omega⟩

/-- Flattening the stack reads position `i` at `cell i`: the row-major position of (b, r, c) is
    (b · 1024 + r) · 1024 + c. -/
theorem flatten_apply {α : Type} (y : Stack.Idx → α) (h : Stack.ShapeCasts Flat) (i : Flat.Idx) :
    shapeCast Flat y h i = y (cell i) :=
  shapeCast_apply y h i (cell i) (by
    rewrite [Shape.rowMajor_val_three, Shape.rowMajor_val_one]
    have h0 : (i 0).val < 33554432 := (i 0).isLt
    show ((i 0).val / 1048576 * 1024 + (i 0).val / 1024 % 1024) * 1024 + (i 0).val % 1024 = (i 0).val
    omega)

/-- The edge attributes: the logistic function of each entry, in flat order. -/
def edgeAttr (x : Stack.Idx → EReal) : Flat.Idx → EReal := fun i => Ideal.logistic (x (cell i))

/-- The edge index: row numbers in the first row, column numbers in the second. -/
def edgeIndex : TwoRows.Idx → BitVec 32 := fun i =>
  if (i 0).val = 0 then BitVec.ofNat 32 (rowOf (i 1).val) else BitVec.ofNat 32 (colOf (i 1).val)

end Cert.EdgeSpec

end
-- ==== Proof.RefSide.lean ====
/-
  The reference program computes the specification.

  Its attribute result is the quotient 1 / (1 + e^(-x)) spelt out in four host operations and then
  flattened; on the extended reals that quotient is the logistic function by definition, so nothing about
  the size of `x` is needed.

  Its index result is built for ONE matrix first — a two-row table of length 2^20 whose position `p` holds
  the row number `p / 2^10` and the column number `p mod 2^10` — and that table is then repeated 32 times
  along the flat axis.  Position `f` of the long result therefore reads position `f mod 2^20` of the table,
  and `(f mod 2^20) / 2^10 = f / 2^10 mod 2^10`, `(f mod 2^20) mod 2^10 = f mod 2^10`.
-/
import proofs.«117321_j40029095199103_2_alg».proof.Proof.Gen.ReferenceIdeal.Read
import proofs.«117321_j40029095199103_2_alg».proof.Proof.EdgeSpec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx Cert.EdgeSpec

/-! ## The attributes -/

/-- The flat position the reference's last reshape reads is the specification's `cell`. -/
theorem cell_eq (i : S33554432.Idx) : idx_main_v19 i = cell i :=
  funext fun a => Fin.ext (by match a with | ⟨0, _⟩ => rfl | ⟨1, _⟩ => rfl | ⟨2, _⟩ => rfl)

/-- The reference's attribute result is the logistic function of each entry, in flat order: the spelt-out
    quotient 1 / (1 + e^(-x)) IS the logistic function on every extended real. -/
theorem attr_eq (x0 : FVec Ideal S32x1024x1024 .f32) : val_main_v19 (F := Ideal) x0 = edgeAttr x0 := by
  funext i
  rw [val_main_v19_apply, val_main_v5_apply, val_main_v4_apply, val_main_cst_0_apply, val_main_v3_apply,
    val_main_v2_apply, val_main_cst_apply, val_main_v1_apply, val_main_v0_apply, cell_eq]
  simp only [Ideal.hostDivf_def, Ideal.addf_def, Ideal.hostUnary_exp_def, Ideal.hostNegf_def, Ideal.negf_def,
    Ideal.ofBits_def, Ideal.ofBits_one_f32]
  rfl

/-! ## The index -/

/-- Position `(a, f)` of the long index result is read at position `(a, f mod 2^20)` of one matrix's table:
    the table is laid out 32 times in a row. -/
theorem table_pos (i : S2x33554432.Idx) :
    idx_main_v16 (idx_main_v17 (idx_main_v18 i))
      = ix2 (⟨(i 0).val, (i 0).isLt⟩ : Fin 2) (⟨(i 1).val % 1048576, Nat.mod_lt _ (by decide)⟩ : Fin 1048576) := by
  have h0 : (i 0).val < 2 := (i 0).isLt
  have h1 : (i 1).val < 33554432 := (i 1).isLt
  funext a; apply Fin.ext
  match a with
  | ⟨0, _⟩ =>
    show (((0 * 2 + ((i 0).val * 33554432 + (i 1).val) / 33554432 % 2) * 1 + 0) * 1048576
      + ((i 0).val * 33554432 + (i 1).val) % 1048576) / 1048576 = (i 0).val
    omega
  | ⟨1, _⟩ =>
    show (((0 * 2 + ((i 0).val * 33554432 + (i 1).val) / 33554432 % 2) * 1 + 0) * 1048576
      + ((i 0).val * 33554432 + (i 1).val) % 1048576) % 1048576 = (i 1).val % 1048576
    omega

/-- The first row of one matrix's table holds the row number of each position. -/
theorem table_row (p : Fin 1048576) :
    val_main_v13 (F := Ideal) (ix2 ⟨0, Nat.one_pos⟩ p) = BitVec.ofNat 32 (p.val / 1024) := by
  rw [val_main_v13_apply, val_main_v8_apply, val_main_v7_apply, val_main_v6_apply]

/-- The second row holds the column number. -/
theorem table_col (p : Fin 1048576) :
    val_main_v14 (F := Ideal) (ix2 ⟨0, Nat.one_pos⟩ p) = BitVec.ofNat 32 (p.val % 1024) := by
  rw [val_main_v14_apply, val_main_v12_apply, val_main_v11_apply, val_main_v10_apply, val_main_v9_apply]
  congr 1
  show 0 * 1024 + p.val % 1024 = p.val % 1024
  omega

/-- The reference's index result is the specification's: row numbers over column numbers. -/
theorem index_eq : val_main_v18 (F := Ideal) = edgeIndex := by
  funext i
  have h0 : (i 0).val < 2 := (i 0).isLt
  have h1 : (i 1).val < 33554432 := (i 1).isLt
  rw [val_main_v18_apply, val_main_v17_apply, val_main_v16_apply, table_pos]
  unfold val_main_v15 edgeIndex
  by_cases hz : (i 0).val = 0
  · rw [if_pos hz, concatenate_pair_apply_left (t := S2x1048576) (s₁ := S1x1048576) (s₂ := S1x1048576) (0 : Fin 2) _ _ _ _ rfl
        (ix2 (⟨0, Nat.one_pos⟩ : Fin 1) (⟨(i 1).val % 1048576, Nat.mod_lt _ (by decide)⟩ : Fin 1048576))
        (fun b => by match b with | ⟨0, _⟩ => exact hz.symm | ⟨1, _⟩ => rfl),
      table_row]
    congr 1
    show (i 1).val % 1048576 / 1024 = (i 1).val / 1024 % 1024
    omega
  · rw [if_neg hz, concatenate_pair_apply_right (t := S2x1048576) (s₁ := S1x1048576) (s₂ := S1x1048576) (0 : Fin 2) _ _ _ _ rfl rfl
        (ix2 (⟨0, Nat.one_pos⟩ : Fin 1) (⟨(i 1).val % 1048576, Nat.mod_lt _ (by decide)⟩ : Fin 1048576))
        (fun b hb => by match b with | ⟨0, _⟩ => exact absurd rfl hb | ⟨1, _⟩ => rfl)
        (by show 0 + 1 = (i 0).val; omega),
      table_col]
    congr 1
    show (i 1).val % 1048576 % 1024 = (i 1).val % 1024
    omega

end Cert.ReferenceIdeal.RefValue

end
-- ==== Proof.KernelBlocks.lean ====
/-
  The kernel's own array after its 32 grid points.

  The grid has one point per matrix of the stack.  At point `t` the body loads matrix `t` (one block of
  shape 1 × 1024 × 1024), applies the logistic function to every entry and stores the block back whole.  The
  input block and the output block at a point sit at the same place of their arrays, so what point `t`
  writes back is block `t` of ONE function of the whole input: the logistic function entry by entry.  The 32
  blocks tile the output array (entry (b, r, c) lies in block `b`), so after the run the array holds that
  function everywhere.
-/
import proofs.«117321_j40029095199103_2_alg».proof.Proof.Gen.KernelIdeal.Frame
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The body's accesses start at the origin of the block. -/
theorem origin : (![0, 0, 0] : Fin 3 → Nat) = fun _ => 0 := funext fun a => by fin_cases a <;> rfl

/-- The logistic function applied to every entry of the stack. -/
abbrev entrywise (x : S32x1024x1024.Idx → Elt F .f32) : S32x1024x1024.Idx → Elt F .f32 :=
  fun i => FloatOps.logistic (x i)

/-- At every grid point the input block and the output block have the same block coordinates, and they are
    (t, 0, 0): block `t` is matrix `t`. -/
theorem block_coords : ∀ t : Fin cfg0.N,
    win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) = t.val
    ∧ win0_1.index t (1 : Fin 3) = 0
    ∧ win0_1.index t (2 : Fin 3) = 0 :=
  (by decide +kernel : ∀ t : Fin grid0.N, _)

/-- What point `t` writes back is block `t` of the entrywise logistic function of the input array. -/
theorem flushed_eq (c : Dev nD) (t : Fin cfg0.N) :
    (dats m 0 c).flushed 1 t = ((cfg0.win 1).blk t).view.read (Elt F) (entrywise (V m c main_arg0)) := by
  show (cfg0.win 1).cut (grid0.coords t) ((dats m 0 c).after 1 t) = _
  rw [after0_1]
  unfold out0_1
  rw [View.canon_unit_zero origin]
  simp only [View.ld_unit_zero (S := S1x1024x1024) origin]
  obtain ⟨e0, e1, e2, -, -, -⟩ := block_coords t
  funext j
  show FloatOps.logistic (V m c main_arg0 (((cfg0.win 0).blk t).view.emb j))
    = FloatOps.logistic (V m c main_arg0 (((cfg0.win 1).blk t).view.emb j))
  have h0 : ((cfg0.win 0).blk t).view.emb j = ((cfg0.win 1).blk t).view.emb j := by
    funext a; apply Fin.ext
    match a with
    | ⟨0, _⟩ =>
      show win0_0.index t (0 : Fin 3) * 1 + 1 * (j 0).val = win0_1.index t (0 : Fin 3) * 1 + 1 * (j 0).val
      omega
    | ⟨1, _⟩ =>
      show win0_0.index t (1 : Fin 3) * 1024 + 1 * (j 1).val = win0_1.index t (1 : Fin 3) * 1024 + 1 * (j 1).val
      omega
    | ⟨2, _⟩ =>
      show win0_0.index t (2 : Fin 3) * 1024 + 1 * (j 2).val = win0_1.index t (2 : Fin 3) * 1024 + 1 * (j 2).val
      omega
  rw [h0]

/-- An entry of the output array is in point `t`'s block iff each of its coordinates is in the block's
    range on that axis. -/
theorem mem_block (t : Fin cfg0.N) (i : S32x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0).slice (win0_1.rect t)).set ↔ _
  rw [View.set_slice_whole, Rect.mem_set_unit]
  exact Iff.rfl

/-- Every entry (b, r, c) of the output array is in the block of the point `b`, which is written back. -/
theorem covered (i : S32x1024x1024.Idx) :
    ∃ t : Fin cfg0.N, (cfg0.win 1).flush t = true ∧ i ∈ ((cfg0.win 1).blk t).view.set := by
  have hi0 : (i 0).val < 32 := (i 0).isLt
  have hi1 : (i 1).val < 1024 := (i 1).isLt
  have hi2 : (i 2).val < 1024 := (i 2).isLt
  obtain ⟨t, ht⟩ : ∃ t : Fin cfg0.N, t.val = (i 0).val :=
    ⟨⟨(i 0).val, by rw [show cfg0.N = 32 from N_0]; exact hi0⟩, rfl⟩
  obtain ⟨-, -, -, q0, q1, q2⟩ := block_coords t
  refine ⟨t, flush0_1 t, ?_⟩
  rw [mem_block]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 1024 ≤ (i 1).val ∧ (i 1).val < win0_1.index t (1 : Fin 3) * 1024 + 1024
    omega
  | ⟨2, _⟩ =>
    show win0_1.index t (2 : Fin 3) * 1024 ≤ (i 2).val ∧ (i 2).val < win0_1.index t (2 : Fin 3) * 1024 + 1024
    omega

/-- The output array after the last point: the logistic function of every entry of the input. -/
theorem final (c : Dev nD) :
    (dats m 0 c).arrAt 1 cfg0.N = entrywise (m ((c : Thread nD τ).loc main_arg0)) :=
  (dats m 0 c).arrAt_eq_of_cover 1 (entrywise (V m c main_arg0)) (fun t _ => flushed_eq m c t) covered

end Cert.KernelIdeal.Blocks

end
-- ==== Proof.KernelRun.lean ====
/-
  The kernel program's two results.

  After the grid the program has eight more host operations.  Six of them build the index result out of
  two coordinate arrays over the stack — the row coordinate of every entry and its column coordinate —, each
  flattened, turned into a one-row array, and the two rows stacked.  The last one flattens the grid's output
  array into the attribute result.

  So position `f` of the first index row is the row coordinate of the entry that flat position `f` holds,
  which is `f / 2^10 mod 2^10`; of the second row its column coordinate, `f mod 2^10`; and the attribute at
  `f` is the logistic function of that entry.
-/
import proofs.«117321_j40029095199103_2_alg».proof.Proof.KernelBlocks
import proofs.«117321_j40029095199103_2_alg».proof.Proof.EdgeSpec
import Idealize.ShloMosaic.Lib.StableHlo.Run

set_option maxRecDepth 16384

noncomputable section

namespace Cert.KernelIdeal.Tail

open Cert.KernelIdeal Cert.KernelIdeal.Gen Cert.KernelIdeal.Blocks Cert.EdgeSpec
open Idealize.ShloMosaic Idealize.ShloMosaic.TcCoe Idealize.SL.Sem Idealize.ShloMosaic.StableHlo
open Idealize.ShloMosaic.ValueIdx

section AnyFloat

variable {F : FTy → Type} [FloatOps F]
variable (m : (ℓ : Loc nD τ sig) → Buf (Elt F) ℓ) (ρ : Dev nD → PrngReg)

/-- The two result buffers are ordinary buffers of the program, not arrays the grid stages. -/
theorem mem_index : main_v7 ∈ Pipeline.restRefs sig (cfgs 0).spec :=
  Pipeline.mem_restRefs_of main_v7 rfl (by decide)
theorem mem_attr : main_v8 ∈ Pipeline.restRefs sig (cfgs 0).spec :=
  Pipeline.mem_restRefs_of main_v8 rfl (by decide)

/-- The attribute result is the flattening of the grid's output array, which holds the entrywise logistic
    function of the input. -/
theorem attr_tail (c : Dev nD) :
    Pipeline.afterTail₀ cfgs (dats m) 0 (V0 m) [hostOps1] c main_v8
      = shapeCast _ (entrywise (m ((c : Thread nD τ).loc main_arg0))) shapeCasts_S32x1024x1024_S33554432 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v0)
      = entrywise (m ((c : Thread nD τ).loc main_arg0)) :=
    (Pipeline.withArrays_arr spec0 launch0.win.arr_inj c _ _ 1).trans (final m c)
  rw [e]
  rfl

/-- The index result is the stack of the two flattened coordinate arrays; it does not depend on the input. -/
theorem index_tail (c : Dev nD) :
    Pipeline.afterTail₀ cfgs (dats m) 0 (V0 m) [hostOps1] c main_v7
      = concatenate S2x33554432 0
          [⟨S1x33554432, broadcastInDim S1x33554432 ![1] bcast_S33554432_S1x33554432_1
              (shapeCast _ (iotaInDim S32x1024x1024 32 1) shapeCasts_S32x1024x1024_S33554432)⟩,
           ⟨S1x33554432, broadcastInDim S1x33554432 ![1] bcast_S33554432_S1x33554432_1
              (shapeCast _ (iotaInDim S32x1024x1024 32 2) shapeCasts_S32x1024x1024_S33554432)⟩]
          concatenates_S1x33554432_S1x33554432_S2x33554432_d0 := by
  unfold Pipeline.afterTail₀
  show StableHlo.after hostOps1 _ (Proc.devRef .tc main_v7) = _
  after_results
  rfl

end AnyFloat

/-! ## The two results at a position -/

/-- A flat array turned into a one-row array reads, at column `f`, the flat array at `f`. -/
theorem one_row_apply {α : Type} (y : S33554432.Idx → α) (k : S1x33554432.Idx) :
    broadcastInDim S1x33554432 ![1] bcast_S33554432_S1x33554432_1 y k
      = y (ix1 (⟨(k 1).val, (k 1).isLt⟩ : Fin 33554432)) :=
  broadcastInDim_apply _ bcast_S33554432_S1x33554432_1 y k _ (fun a => match a with
    | ⟨0, _⟩ => by show (k 1).val = if (33554432 : Nat) = 1 then 0 else (k 1).val; rw [if_neg (by decide)])

/-- The stacked coordinate rows are the specification's index: row numbers over column numbers. -/
theorem index_eq :
    concatenate S2x33554432 0
        [⟨S1x33554432, broadcastInDim S1x33554432 ![1] bcast_S33554432_S1x33554432_1
            (shapeCast _ (iotaInDim S32x1024x1024 32 1) shapeCasts_S32x1024x1024_S33554432)⟩,
         ⟨S1x33554432, broadcastInDim S1x33554432 ![1] bcast_S33554432_S1x33554432_1
            (shapeCast _ (iotaInDim S32x1024x1024 32 2) shapeCasts_S32x1024x1024_S33554432)⟩]
        concatenates_S1x33554432_S1x33554432_S2x33554432_d0
      = edgeIndex := by
  funext i
  have h0 : (i 0).val < 2 := (i 0).isLt
  unfold edgeIndex
  by_cases hz : (i 0).val = 0
  · rw [if_pos hz, concatenate_pair_apply_left (t := S2x33554432) (s₁ := S1x33554432) (s₂ := S1x33554432) (0 : Fin 2) _ _ _ _ rfl
        (ix2 (⟨0, Nat.one_pos⟩ : Fin 1) (⟨(i 1).val, (i 1).isLt⟩ : Fin 33554432))
        (fun b => by match b with | ⟨0, _⟩ => exact hz.symm | ⟨1, _⟩ => rfl),
      one_row_apply, flatten_apply]
    rfl
  · rw [if_neg hz, concatenate_pair_apply_right (t := S2x33554432) (s₁ := S1x33554432) (s₂ := S1x33554432) (0 : Fin 2) _ _ _ _ rfl rfl
        (ix2 (⟨0, Nat.one_pos⟩ : Fin 1) (⟨(i 1).val, (i 1).isLt⟩ : Fin 33554432))
        (fun b hb => by match b with | ⟨0, _⟩ => exact absurd rfl hb | ⟨1, _⟩ => rfl)
        (by show 0 + 1 = (i 0).val; omega),
      one_row_apply, flatten_apply]
    rfl

/-- The flattened entrywise logistic function is the specification's attribute array. -/
theorem attr_eq (x : S32x1024x1024.Idx → EReal) :
    shapeCast _ (entrywise (F := Ideal) x) shapeCasts_S32x1024x1024_S33554432 = edgeAttr x := by
  funext i
  rw [flatten_apply]
  rfl

/-! ## The run -/

/-- Every weakly fair execution of the kernel program on the extended reals terminates with the index
    result at the specification's index, the attribute result at the specification's attributes of the
    input, and the input unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = edgeIndex
      ∧ r.2.mem ((c.tc : Thread nD τ).loc main_v8) = edgeAttr (m ((c.tc : Thread nD τ).loc main_arg0))
      ∧ r.2.mem ((c.tc : Thread nD τ).loc main_arg0) = m ((c.tc : Thread nD τ).loc main_arg0) :=
  (θ_run defs _ _).mono (fun r h c =>
      ⟨(((h c).2 main_v7 mem_index).trans (index_tail m c)).trans index_eq,
       (((h c).2 main_v8 mem_attr).trans (attr_tail m c)).trans (attr_eq _),
       ((h c).1 0).trans (((dats m 0 c).arrAt_in 0 rfl _).trans ((A_eq m c 0).trans (V_main_arg0 m c)))⟩)
    (run_main m ρ)

end Cert.KernelIdeal.Tail

end
-- ==== Proof.lean ====
/-
  A stack of 32 square matrices of side 1024 goes in; out come the logistic function of every entry, laid
  out flat in row-major order, and a two-row index whose position `f` holds the row number and the column
  number (inside its matrix) of the entry at flat position `f`.

  The kernel program applies the logistic function matrix by matrix on a grid of 32 points and flattens the
  result; it builds the index from the row and column coordinate arrays of the whole stack.  The reference
  spells the logistic function as the quotient 1 / (1 + e^(-x)), and builds the index for one matrix and
  repeats it 32 times.  On the extended reals the quotient is the logistic function by definition, for every
  entry, finite or not; and repeating the one-matrix table is reading the long index at `f mod 2^20`, which
  has the same row and column numbers as `f`.  Both programs are shown to end at one specification
  (`Cert.EdgeSpec`), so their results agree position by position.

  The idealized kernel is the kernel's own text read on the extended reals: no operation was rewritten, so
  there is nothing to preserve.  The three frames are the programs' runs with the results dropped.
-/
import proofs.«117321_j40029095199103_2_alg».proof.Defs
import proofs.«117321_j40029095199103_2_alg».proof.Proof.Gen.Kernel
import proofs.«117321_j40029095199103_2_alg».proof.Proof.Gen.Kernel.Skeleton
import proofs.«117321_j40029095199103_2_alg».proof.Proof.Gen.Kernel.Launch
import proofs.«117321_j40029095199103_2_alg».proof.Proof.Gen.Kernel.Points
import proofs.«117321_j40029095199103_2_alg».proof.Proof.Gen.Kernel.Frame
import proofs.«117321_j40029095199103_2_alg».proof.Proof.Gen.KernelIdeal
import proofs.«117321_j40029095199103_2_alg».proof.Proof.Gen.KernelIdeal.Skeleton
import proofs.«117321_j40029095199103_2_alg».proof.Proof.Gen.KernelIdeal.Launch
import proofs.«117321_j40029095199103_2_alg».proof.Proof.Gen.KernelIdeal.Points
import proofs.«117321_j40029095199103_2_alg».proof.Proof.Gen.KernelIdeal.Frame
import proofs.«117321_j40029095199103_2_alg».proof.Proof.Gen.ReferenceIdeal
import proofs.«117321_j40029095199103_2_alg».proof.Proof.Gen.ReferenceIdeal.Run
import proofs.«117321_j40029095199103_2_alg».proof.Proof.Gen.ReferenceIdeal.Read
import proofs.«117321_j40029095199103_2_alg».proof.Proof.Gen.Pre_finite_inputs
import proofs.«117321_j40029095199103_2_alg».proof.Proof.EdgeSpec
import proofs.«117321_j40029095199103_2_alg».proof.Proof.RefSide
import proofs.«117321_j40029095199103_2_alg».proof.Proof.KernelBlocks
import proofs.«117321_j40029095199103_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves its input alone. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference has no grid: its frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From inputs that agree, both programs end at the specification's index and at the specification's
    attributes of the input: the kernel program by its run, the reference by its run read one operation at
    a time. -/
theorem algebraic : Cert.algebraic_KernelIdeal_ReferenceIdeal := by
  intro m ρ m' ρ' _ hagree
  refine ⟨fun _ => Cert.EdgeSpec.edgeIndex,
    fun c => Cert.EdgeSpec.edgeAttr (m ((c.tc : Thread Cert.KernelIdeal.nD Cert.KernelIdeal.τ).loc Cert.KernelIdeal.main_arg0)),
    Cert.KernelIdeal.Tail.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq (F := Ideal), Cert.ReferenceIdeal.RefValue.index_eq]
  · rw [(h c).2.1, Cert.ReferenceIdeal.Read.val_main_v19_eq (F := Ideal), Cert.ReferenceIdeal.RefValue.attr_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
